-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S128x2048 : Shape := ⟨2, ![128, 2048]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S128x2048 : S_.BroadcastsInDim S128x2048 (![] : Fin 0 → Fin S128x2048.rank)
  reducesTo_S128x2048_S_d0_1 : S128x2048.ReducesTo [0, 1] S_

variable [Facts]

def fn {F : FTy → Type} [FloatOps F] (main_arg0 : FVec F S32768x256 .f32) (main_arg1 : FVec F S128x2048 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  main_v8
-- ==== Kernel.lean ====
abbrev S32768x256 : Shape := ⟨2, ![32768, 256]⟩
abbrev S128x2048 : Shape := ⟨2, ![128, 2048]⟩
abbrev S_ : Shape := ⟨0, ![]⟩
abbrev S2048 : Shape := ⟨1, ![2048]⟩
abbrev S256x8 : Shape := ⟨2, ![256, 8]⟩
abbrev S8x256 : Shape := ⟨2, ![8, 256]⟩
abbrev S32768x1 : Shape := ⟨2, ![32768, 1]⟩
abbrev S4096x256 : Shape := ⟨2, ![4096, 256]⟩
abbrev S4096x1 : Shape := ⟨2, ![4096, 1]⟩
abbrev S1x256 : Shape := ⟨2, ![1, 256]⟩
abbrev S256 : Shape := ⟨1, ![256]⟩
abbrev S4096 : Shape := ⟨1, ![4096]⟩

abbrev nBuf : Space → Nat
  | .hbm => 7
  | .vmem => 5
  | .smem => 0
  | _ => 0

abbrev bufTy : (tb : Table) → Fin (tcTables nBuf tb) → BufTy
  | .hbm, ⟨0, _⟩ => ⟨S32768x256, .f32⟩
  | .hbm, ⟨1, _⟩ => ⟨S128x2048, .f32⟩
  | .hbm, ⟨2, _⟩ => ⟨S_, .f32⟩
  | .hbm, ⟨3, _⟩ => ⟨S2048, .f32⟩
  | .hbm, ⟨4, _⟩ => ⟨S256x8, .f32⟩
  | .hbm, ⟨5, _⟩ => ⟨S8x256, .f32⟩
  | .hbm, ⟨6, _⟩ => ⟨S32768x1, .f32⟩
  | .local _ .vmem, ⟨0, _⟩ => ⟨S4096x256, .f32⟩
  | .local _ .vmem, ⟨1, _⟩ => ⟨S4096x256, .f32⟩
  | .local _ .vmem, ⟨2, _⟩ => ⟨S8x256, .f32⟩
  | .local _ .vmem, ⟨3, _⟩ => ⟨S4096x1, .f32⟩
  | .local _ .vmem, ⟨4, _⟩ => ⟨S4096x1, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S128x2048_S2048_d0 : S128x2048.ReducesTo [0] S2048
  h_S_ : 0 < S_.numel
  shapeCasts_S2048_S256x8 : S2048.ShapeCasts S256x8
  transposes_S256x8_S8x256_1_0 : S256x8.Transposes [1, 0] S8x256
  inb_S4096x256_S4096x256_0_0 : ∀ a, (![0, 0] : Fin 2 → Nat) a + S4096x256.size a ≤ S4096x256.size a
  h_S4096x256 : 0 < S4096x256.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  slices_S8x256_o7_0_S1x256 : S8x256.Slices ![7, 0] S1x256
  shapeCasts_S1x256_S256 : S1x256.ShapeCasts S256
  shapeCasts_S256_S1x256 : S256.ShapeCasts S1x256
  broadcasts_S1x256_S4096x256 : S1x256.Broadcasts S4096x256
  slices_S8x256_o6_0_S1x256 : S8x256.Slices ![6, 0] S1x256
  slices_S8x256_o5_0_S1x256 : S8x256.Slices ![5, 0] S1x256
  slices_S8x256_o4_0_S1x256 : S8x256.Slices ![4, 0] S1x256
  slices_S8x256_o3_0_S1x256 : S8x256.Slices ![3, 0] S1x256
  slices_S8x256_o2_0_S1x256 : S8x256.Slices ![2, 0] S1x256
  slices_S8x256_o1_0_S1x256 : S8x256.Slices ![1, 0] S1x256
  slices_S8x256_o0_0_S1x256 : S8x256.Slices ![0, 0] S1x256
  reduces_S4096x256_S4096 : S4096x256.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S32768x256.size a
  hwx0_0 : ∀ i : grid0.Coords, EltTy.bits .f32 = 32 ∨ (Rect.block (s := S32768x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S32768x1.size a
  hwx0_2 : ∀ i : grid0.Coords, EltTy.bits .f32 = 32 ∨ (Rect.block (s := S32768x1) S4096x1.size (cc0_transform_2 i) (hinb0_2 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x256 : Shape := ⟨2, ![32768, 256]⟩
abbrev S128x2048 : Shape := ⟨2, ![128, 2048]⟩
abbrev S_ : Shape := ⟨0, ![]⟩
abbrev S32768x256x1 : Shape := ⟨3, ![32768, 256, 1]⟩
abbrev S32768x256x8 : Shape := ⟨3, ![32768, 256, 8]⟩
abbrev S32768x2048 : Shape := ⟨2, ![32768, 2048]⟩
abbrev S32768x128 : Shape := ⟨2, ![32768, 128]⟩
abbrev S32768 : Shape := ⟨1, ![32768]⟩
abbrev S32768x1 : Shape := ⟨2, ![32768, 1]⟩

abbrev nBuf : Space → Nat
  | .hbm => 48
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S128x2048, .f32⟩
  | .hbm, ⟨2, _⟩ => ⟨S_, .f32⟩
  | .hbm, ⟨3, _⟩ => ⟨S32768x256, .f32⟩
  | .hbm, ⟨4, _⟩ => ⟨S_, .f32⟩
  | .hbm, ⟨5, _⟩ => ⟨S32768x256, .f32⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S_, .f32⟩
  | .hbm, ⟨10, _⟩ => ⟨S32768x256, .f32⟩
  | .hbm, ⟨11, _⟩ => ⟨S32768x256, .f32⟩
  | .hbm, ⟨12, _⟩ => ⟨S32768x256, .f32⟩
  | .hbm, ⟨13, _⟩ => ⟨S32768x256, .f32⟩
  | .hbm, ⟨14, _⟩ => ⟨S_, .f32⟩
  | .hbm, ⟨15, _⟩ => ⟨S32768x256, .f32⟩
  | .hbm, ⟨16, _⟩ => ⟨S32768x256, .f32⟩
  | .hbm, ⟨17, _⟩ => ⟨S32768x256, .f32⟩
  | .hbm, ⟨18, _⟩ => ⟨S32768x256, .f32⟩
  | .hbm, ⟨19, _⟩ => ⟨S_, .f32⟩
  | .hbm, ⟨20, _⟩ => ⟨S32768x256, .f32⟩
  | .hbm, ⟨21, _⟩ => ⟨S32768x256, .f32⟩
  | .hbm, ⟨22, _⟩ => ⟨S32768x256, .f32⟩
  | .hbm, ⟨23, _⟩ => ⟨S32768x256, .f32⟩
  | .hbm, ⟨24, _⟩ => ⟨S_, .f32⟩
  | .hbm, ⟨25, _⟩ => ⟨S32768x256, .f32⟩
  | .hbm, ⟨26, _⟩ => ⟨S32768x256, .f32⟩
  | .hbm, ⟨27, _⟩ => ⟨S32768x256, .f32⟩
  | .hbm, ⟨28, _⟩ => ⟨S32768x256, .f32⟩
  | .hbm, ⟨29, _⟩ => ⟨S_, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S32768x256, .f32⟩
  | .hbm, ⟨34, _⟩ => ⟨S32768x256x1, .f32⟩
  | .hbm, ⟨35, _⟩ => ⟨S32768x256x1, .f32⟩
  | .hbm, ⟨36, _⟩ => ⟨S32768x256x1, .f32⟩
  | .hbm, ⟨37, _⟩ => ⟨S32768x256x1, .f32⟩
  | .hbm, ⟨38, _⟩ => ⟨S32768x256x1, .f32⟩
  | .hbm, ⟨39, _⟩ => ⟨S32768x256x1, .f32⟩
  | .hbm, ⟨40, _⟩ => ⟨S32768x256x1, .f32⟩
  | .hbm, ⟨41, _⟩ => ⟨S32768x256x1, .f32⟩
  | .hbm, ⟨42, _⟩ => ⟨S32768x256x8, .f32⟩
  | .hbm, ⟨43, _⟩ => ⟨S32768x2048, .f32⟩
  | .hbm, ⟨44, _⟩ => ⟨S32768x128, .f32⟩
  | .hbm, ⟨45, _⟩ => ⟨S_, .f32⟩
  | .hbm, ⟨46, _⟩ => ⟨S32768, .f32⟩
  | .hbm, ⟨47, _⟩ => ⟨S32768x1, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]

class Facts₀ : Prop where
  bcast_S_S32768x256 : S_.BroadcastsInDim S32768x256 (![] : Fin 0 → Fin S32768x256.rank)
  bcast_S32768x256_S32768x256x1_0_1 : S32768x256.BroadcastsInDim S32768x256x1 (![0, 1] : Fin 2 → Fin S32768x256x1.rank)
  concatenates_S32768x256x1_S32768x256x1_S32768x256x1_S32768x256x1_S32768x256x1_S32768x256x1_S32768x256x1_S32768x256x1_S32768x256x8_d2 : Shape.Concatenates [S32768x256x1, S32768x256x1, S32768x256x1, S32768x256x1, S32768x256x1, S32768x256x1, S32768x256x1, S32768x256x1] S32768x256x8 2
  shapeCasts_S32768x256x8_S32768x2048 : S32768x256x8.ShapeCasts S32768x2048
  reducesTo_S32768x128_S32768_d1 : S32768x128.ReducesTo [1] S32768
  h_S_ : 0 < S_.numel
  bcast_S32768_S32768x1_0 : S32768.BroadcastsInDim S32768x1 (![0] : Fin 1 → Fin S32768x1.rank)
  dot_S32768x2048_S128x2048_S32768x128_1_1_0_0_n_n_wf : DotDims.WF S32768x2048 S128x2048 S32768x128 [1] [1] [0] [0] [] []

variable [Facts₀]

def dot_S32768x2048_S128x2048_S32768x128_1_1_0_0_n_n : DotDims S32768x2048 S128x2048 S32768x128 where
  lhsContracting := [1]
  rhsContracting := [1]
  lhsNonContracting := [0]
  rhsNonContracting := [0]
  lhsBatch := []
  rhsBatch := []
  wf := dot_S32768x2048_S128x2048_S32768x128_1_1_0_0_n_n_wf

class Facts : Prop extends Facts₀ where

variable [Facts]
-- ==== Proof.ChebReal.lean ====
/-
  The mathematics over the reals.

  Chebyshev polynomials of the first kind by the three-term recurrence T₀ = 1, T₁ = x, Tₖ₊₂ = 2·x·Tₖ₊₁ − Tₖ, and
  Clenshaw's evaluation of a combination Σ_d w_d·T_d(x) with eight coefficients: b₇ = w₇, b₆ = 2x·b₇ + w₆,
  bₖ = 2x·bₖ₊₁ − bₖ₊₂ + wₖ, result x·b₁ − b₂ + w₀. The two agree as polynomials in x and the w's (`clen_eq_sum`).

  A sum over the 2048 feature positions f = 8·i + d is the double sum over the 256 positions i and the 8 degrees d
  (`sum_flat`), and a sum over rows n of dot products with one feature vector is the dot product with the column sums
  (`rows_dot`): a finite sum is linear.
-/
import Mathlib.Algebra.BigOperators.Fin
import Mathlib.Algebra.BigOperators.Ring.Finset
import Mathlib.Data.Real.Basic
import Mathlib.Tactic.Ring
import Mathlib.Tactic.Linarith

namespace Cert.Cheb

/-- Chebyshev polynomials of the first kind, by the three-term recurrence. -/
def T (x : ℝ) : ℕ → ℝ
  | 0 => 1
  | 1 => x
  | (n + 2) => 2 * x * T x (n + 1) - T x n

/-- Clenshaw's recurrence for eight coefficients, started from b₈ = b₉ = 0. -/
def clen (x : ℝ) (w : Fin 8 → ℝ) : ℝ :=
  let b7 := 2 * x * 0 - 0 + w 7
  let b6 := 2 * x * b7 - 0 + w 6
  let b5 := 2 * x * b6 - b7 + w 5
  let b4 := 2 * x * b5 - b6 + w 4
  let b3 := 2 * x * b4 - b5 + w 3
  let b2 := 2 * x * b3 - b4 + w 2
  x * (2 * x * b2 - b3 + w 1) - b2 + w 0

/-- Clenshaw's recurrence evaluates the Chebyshev combination. -/
theorem clen_eq_sum (x : ℝ) (w : Fin 8 → ℝ) : clen x w = ∑ d : Fin 8, T x d.val * w d := by
  rw [Fin.sum_univ_eight]
  show clen x w = T x 0 * w 0 + T x 1 * w 1 + T x 2 * w 2 + T x 3 * w 3 + T x 4 * w 4 + T x 5 * w 5 + T x 6 * w 6 + T x 7 * w 7
  simp only [clen, T]
  ring

/-- The feature position of input position `i` and degree `d`: positions are laid out position-major. -/
def flat (i : Fin 256) (d : Fin 8) : Fin 2048 := ⟨i.val * 8 + d.val, by omega⟩

/-- Position-major flattening is a bijection between (position, degree) pairs and feature positions. -/
def flatEquiv : Fin 256 × Fin 8 ≃ Fin 2048 where
  toFun p := flat p.1 p.2
  invFun f := (⟨f.val / 8, by omega⟩, ⟨f.val % 8, by omega⟩)
  left_inv p := by
    obtain ⟨i, d⟩ := p
    refine Prod.ext (Fin.ext ?_) (Fin.ext ?_)
    · show (i.val * 8 + d.val) / 8 = i.val; omega
    · show (i.val * 8 + d.val) % 8 = d.val; omega
  right_inv f := by
    apply Fin.ext
    show f.val / 8 * 8 + f.val % 8 = f.val; omega

/-- A sum over feature positions is the double sum over positions and degrees. -/
theorem sum_flat {M : Type*} [AddCommMonoid M] (g : Fin 2048 → M) :
    ∑ f : Fin 2048, g f = ∑ i : Fin 256, ∑ d : Fin 8, g (flat i d) := by
  rw [← Fintype.sum_prod_type' (fun i d => g (flat i d))]
  exact (Fintype.sum_equiv flatEquiv (fun p => g (flat p.1 p.2)) g (fun _ => rfl)).symm

/-- The sum over rows of the dot products of the rows with one vector is the dot product of the column sums with it. -/
theorem rows_dot (feat : Fin 2048 → ℝ) (c : Fin 128 → Fin 2048 → ℝ) :
    ∑ n : Fin 128, ∑ f : Fin 2048, feat f * c n f
      = ∑ i : Fin 256, ∑ d : Fin 8, feat (flat i d) * ∑ n : Fin 128, c n (flat i d) := by
  rw [Finset.sum_comm, sum_flat]
  refine Finset.sum_congr rfl fun i _ => Finset.sum_congr rfl fun d _ => ?_
  rw [Finset.mul_sum]

/-- The whole rearrangement: with the features of a row the Chebyshev values of its entries, the sum over the rows of
    the table of the dot products is the sum over positions of Clenshaw's recurrence on the table's column sums. -/
theorem cheb_rows_eq_clenshaw (x : Fin 256 → ℝ) (c : Fin 128 → Fin 2048 → ℝ) (feat : Fin 2048 → ℝ)
    (hfeat : ∀ i d, feat (flat i d) = T (x i) d.val) :
    ∑ n : Fin 128, ∑ f : Fin 2048, feat f * c n f
      = ∑ i : Fin 256, clen (x i) (fun d => ∑ n : Fin 128, c n (flat i d)) := by
  rw [rows_dot]
  refine Finset.sum_congr rfl fun i _ => ?_
  rw [clen_eq_sum]
  refine Finset.sum_congr rfl fun d _ => ?_
  rw [hfeat]

end Cert.Cheb
-- ==== Proof.LibFloatLiteral.lean ====
/-
  Float literals at the exact instance. A finite binary32 word (exponent field not all ones) denotes a real number,
  a dyadic rational; `lit w` names that real, so that arithmetic on such literals can be carried out in the reals.
  The words of 0 and of the integers 1, …, 9 denote those integers.
-/
import Idealize.ShloMosaic.PureOps.Ideal

noncomputable section

namespace Cert.Lib.FloatLiteral

open Idealize.ShloMosaic

/-- The real number a finite binary32 word denotes (the real part of what the word denotes on the extended reals). -/
def lit (w : BitVec 32) : ℝ := (Ideal.ofBits .f32 w).toReal

/-- A word whose exponent field is not all ones denotes a real: a subnormal ±T·2^(-149) or a normal
    ±(2^23 + T)·2^(E-150), never an infinity or a NaN. -/
theorem ofBits_eq_lit (w : BitVec 32) (h : (w.extractLsb' 23 8).toNat ≠ 255) :
    Ideal.ofBits .f32 w = ((lit w : ℝ) : EReal) := by
  have h' : ¬ (w.extractLsb' 23 8).toNat = 2 ^ 8 - 1 := by simpa using h
  unfold lit
  simp only [Ideal.ofBits, Ideal.ieee]
  rw [if_neg h']
  split_ifs <;> simp only [EReal.toReal_coe]

/-- The zero word denotes 0. -/
theorem lit_zero : lit 0x00000000#32 = 0 := by
  simp [lit, Ideal.ofBits, Ideal.ieee]

/-- The word of 1.0 denotes 1. -/
theorem lit_1 : lit 0x3F800000#32 = 1 := by
  simp [lit, Ideal.ofBits, Ideal.ieee, -EReal.coe_mul]; norm_num

/-- The word of 2.0 denotes 2. -/
theorem lit_2 : lit 0x40000000#32 = 2 := by
  simp [lit, Ideal.ofBits, Ideal.ieee, -EReal.coe_mul]; norm_num

/-- The word of 3.0 denotes 3. -/
theorem lit_3 : lit 0x40400000#32 = 3 := by
  simp [lit, Ideal.ofBits, Ideal.ieee, -EReal.coe_mul]; norm_num

/-- The word of 4.0 denotes 4. -/
theorem lit_4 : lit 0x40800000#32 = 4 := by
  simp [lit, Ideal.ofBits, Ideal.ieee, -EReal.coe_mul]; norm_num

/-- The word of 5.0 denotes 5. -/
theorem lit_5 : lit 0x40A00000#32 = 5 := by
  simp [lit, Ideal.ofBits, Ideal.ieee, -EReal.coe_mul]; norm_num

/-- The word of 6.0 denotes 6. -/
theorem lit_6 : lit 0x40C00000#32 = 6 := by
  simp [lit, Ideal.ofBits, Ideal.ieee, -EReal.coe_mul]; norm_num

/-- The word of 7.0 denotes 7. -/
theorem lit_7 : lit 0x40E00000#32 = 7 := by
  simp [lit, Ideal.ofBits, Ideal.ieee, -EReal.coe_mul]; norm_num

/-- The word of 8.0 denotes 8. -/
theorem lit_8 : lit 0x41000000#32 = 8 := by
  simp [lit, Ideal.ofBits, Ideal.ieee, -EReal.coe_mul]; norm_num

/-- The word of 9.0 denotes 9. -/
theorem lit_9 : lit 0x41100000#32 = 9 := by
  simp [lit, Ideal.ofBits, Ideal.ieee, -EReal.coe_mul]; norm_num

/-- The quotient of a real by a nonzero real literal, on the extended reals, is the real quotient. -/
theorem div_coe_coe (x y : ℝ) (hy : y ≠ 0) : Ideal.div (x : EReal) (y : EReal) = ((x / y : ℝ) : EReal) := by
  rw [Ideal.div_coe hy, ← EReal.coe_mul]; congr 1; ring

end Cert.Lib.FloatLiteral

end
-- ==== Proof.LibCoeSum.lean ====
/-
  A finite sum of reals, coerced into the extended reals, is the sum of the coercions.
-/
import Mathlib.Data.EReal.Basic
import Mathlib.Algebra.BigOperators.Group.Finset.Basic

namespace Cert.Lib.CoeSum

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Lib.CoeSum
-- ==== Proof.ChebEReal.lean ====
/-
  The same two recurrences on the extended reals, with the constants 0, 1, 2 the float words the programs hold, and the
  bridge back to the reals: on real arguments the extended-real recurrences are the coercions of the real ones, because
  sums, differences and products of reals are computed in the reals, and the three words denote 0, 1 and 2.
-/
import Idealize.ShloMosaic.PureOps.Ideal
import proofs.«124027_j14585708937626_2_alg».proof.Proof.ChebReal
import proofs.«124027_j14585708937626_2_alg».proof.Proof.LibFloatLiteral
import proofs.«124027_j14585708937626_2_alg».proof.Proof.LibCoeSum

noncomputable section

namespace Cert.Cheb

open Idealize.ShloMosaic Cert.Lib.FloatLiteral

export Cert.Lib.CoeSum (coe_sum)

/-- The float word of 0.0, of 1.0 and of 2.0, on the extended reals. -/
abbrev zeroE : EReal := Ideal.ofBits .f32 0x00000000#32
abbrev oneE : EReal := Ideal.ofBits .f32 0x3F800000#32
abbrev twoE : EReal := Ideal.ofBits .f32 0x40000000#32

theorem zeroE_eq : zeroE = ((0 : ℝ) : EReal) := by
  rw [zeroE, ofBits_eq_lit _ (by decide), lit_zero]
theorem oneE_eq : oneE = ((1 : ℝ) : EReal) := by
  rw [oneE, ofBits_eq_lit _ (by decide), lit_1]
theorem twoE_eq : twoE = ((2 : ℝ) : EReal) := by
  rw [twoE, ofBits_eq_lit _ (by decide), lit_2]

/-- The Chebyshev recurrence on the extended reals. -/
def TE (x : EReal) : ℕ → EReal
  | 0 => oneE
  | 1 => x
  | (n + 2) => twoE * x * TE x (n + 1) - TE x n

/-- Clenshaw's recurrence on the extended reals. -/
def clenE (x : EReal) (w : Fin 8 → EReal) : EReal :=
  let x2 := twoE * x
  let b7 := x2 * zeroE - zeroE + w 7
  let b6 := x2 * b7 - zeroE + w 6
  let b5 := x2 * b6 - b7 + w 5
  let b4 := x2 * b5 - b6 + w 4
  let b3 := x2 * b4 - b5 + w 3
  let b2 := x2 * b3 - b4 + w 2
  x * (x2 * b2 - b3 + w 1) - b2 + w 0

/-- On a real argument the extended-real Chebyshev values are the real ones. -/
theorem TE_coe (x : ℝ) : ∀ n : ℕ, TE (x : EReal) n = ((T x n : ℝ) : EReal) ∧ TE (x : EReal) (n + 1) = ((T x (n + 1) : ℝ) : EReal)
  | 0 => ⟨by rw [TE, T, oneE_eq], by rw [TE, T]⟩
  | (n + 1) => by
    obtain ⟨h0, h1⟩ := TE_coe x n
    refine ⟨h1, ?_⟩
    rw [TE, T, h0, h1, twoE_eq, ← EReal.coe_mul, ← EReal.coe_mul, ← EReal.coe_sub]

theorem TE_coe' (x : ℝ) (n : ℕ) : TE (x : EReal) n = ((T x n : ℝ) : EReal) := (TE_coe x n).1

/-- On real arguments Clenshaw's recurrence on the extended reals is the real one. -/
theorem clenE_coe (x : ℝ) (w : Fin 8 → ℝ) :
    clenE (x : EReal) (fun d => ((w d : ℝ) : EReal)) = ((clen x w : ℝ) : EReal) := by
  simp only [clenE, clen, zeroE_eq, twoE_eq, EReal.coe_add, EReal.coe_sub, EReal.coe_mul]

end Cert.Cheb

end
-- ==== Proof.Spec.lean ====
/-
  The result as one function of the two argument arrays, in the two arrangements the programs compute it in, and their
  equality on real arguments.

  For an input x of 32768 rows by 256 positions and a table c of 128 rows by 2048 features (feature 8·i + d belongs to
  position i and degree d):
  • `rowK x c b`: the column sums of the table first, then for each position Clenshaw's recurrence in x(b, i) on the
    eight column sums of that position's features, summed over the positions;
  • `rowR x c b`: the Chebyshev value T_d(x(b, i)) as feature 8·i + d, the dot product of row b's features with every table
    row, summed over the table rows.
  Both are Σ_i Σ_d T_d(x(b, i)) · Σ_n c(n, 8·i + d) when every entry is real: multiplication distributes over the finite
  sums and the sums may be exchanged. On the extended reals this needs every entry finite (a product with an infinite
  factor does not distribute over a sum of opposite signs).
-/
import Idealize.ShloMosaic.Lib.ValueIdx
import proofs.«124027_j14585708937626_2_alg».proof.Proof.ChebEReal

noncomputable section

namespace Cert.Cheb

open Idealize.ShloMosaic Idealize.ShloMosaic.ValueIdx

/-- The shapes of the input, of the table and of the result. -/
abbrev XS : Shape := ⟨2, ![32768, 256]⟩
abbrev CS : Shape := ⟨2, ![128, 2048]⟩
abbrev OS : Shape := ⟨2, ![32768, 1]⟩

/-- The sum of column f of the table, started from the zero word. -/
def colsum (C : CS.Idx → EReal) (f : Fin 2048) : EReal := zeroE + ∑ n : Fin 128, C (ix2 n f)

/-- Row b of the result, columns summed first and Clenshaw's recurrence per position. -/
def rowK (X : XS.Idx → EReal) (C : CS.Idx → EReal) (b : Fin 32768) : EReal :=
  ∑ q : Fin 256, clenE (X (ix2 b q)) (fun d => colsum C (flat q d))

/-- Row b of the result, Chebyshev features first and a dot product per table row. -/
def rowR (X : XS.Idx → EReal) (C : CS.Idx → EReal) (b : Fin 32768) : EReal :=
  zeroE + ∑ n : Fin 128, ∑ f : Fin 2048, TE (X (ix2 b (⟨f.val / 8, by omega⟩ : Fin 256))) (f.val % 8) * C (ix2 n f)

/-- The result array: one column, row b at `rowK`. -/
def G (X : XS.Idx → EReal) (C : CS.Idx → EReal) : OS.Idx → EReal := fun j => rowK X C ⟨(j 0).val, (j 0).isLt⟩

/-- On real arguments the two arrangements agree. -/
theorem rowK_eq_rowR (xr : XS.Idx → ℝ) (cr : CS.Idx → ℝ) (b : Fin 32768) :
    rowK (fun i => ((xr i : ℝ) : EReal)) (fun i => ((cr i : ℝ) : EReal)) b
      = rowR (fun i => ((xr i : ℝ) : EReal)) (fun i => ((cr i : ℝ) : EReal)) b := by
  have hK : rowK (fun i => ((xr i : ℝ) : EReal)) (fun i => ((cr i : ℝ) : EReal)) b
      = ((∑ q : Fin 256, clen (xr (ix2 b q)) (fun d => ∑ n : Fin 128, cr (ix2 n (flat q d))) : ℝ) : EReal) := by
    unfold rowK colsum
    rw [coe_sum]
    refine Finset.sum_congr rfl fun q _ => ?_
    rw [← clenE_coe]
    refine congrArg (clenE _) (funext fun d => ?_)
    rw [zeroE_eq, coe_sum, EReal.coe_zero, zero_add]
  have hR : rowR (fun i => ((xr i : ℝ) : EReal)) (fun i => ((cr i : ℝ) : EReal)) b
      = ((∑ n : Fin 128, ∑ f : Fin 2048, T (xr (ix2 b (⟨f.val / 8, by omega⟩ : Fin 256))) (f.val % 8) * cr (ix2 n f) : ℝ) : EReal) := by
    unfold rowR
    rw [zeroE_eq, EReal.coe_zero, zero_add, coe_sum]
    refine Finset.sum_congr rfl fun n _ => ?_
    rw [coe_sum]
    refine Finset.sum_congr rfl fun f _ => ?_
    rw [TE_coe', EReal.coe_mul]
  rw [hK, hR]
  refine congrArg _ (cheb_rows_eq_clenshaw (fun q => xr (ix2 b q)) (fun n f => cr (ix2 n f))
    (fun f => T (xr (ix2 b (⟨f.val / 8, by omega⟩ : Fin 256))) (f.val % 8)) (fun i d => ?_)).symm
  have h1 : (⟨(flat i d).val / 8, by omega⟩ : Fin 256) = i := Fin.ext (by show (i.val * 8 + d.val) / 8 = i.val; omega)
  have h2 : (flat i d).val % 8 = d.val := by show (i.val * 8 + d.val) % 8 = d.val; omega
  show T (xr (ix2 b (⟨(flat i d).val / 8, _⟩ : Fin 256))) ((flat i d).val % 8) = T (xr (ix2 b i)) d.val
  rw [h1, h2]

end Cert.Cheb

end
-- ==== Proof.Finite.lean ====
/-
  The precondition: every entry of the two arguments is a real number.

  The precondition compares the absolute value of every entry with the word of +∞ and takes the conjunction over each
  array, then of the two. On the extended reals |x| < +∞ fails exactly at the two infinities, so under the precondition
  every entry is the coercion of a real.
-/
import proofs.«124027_j14585708937626_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Hand

open Idealize.ShloMosaic Cert.Pre_finite_inputs

instance : Subsingleton S_.Idx := ⟨fun a b => funext fun d => d.elim0⟩

/-- An extended real whose absolute value is below the word of +∞ is a real. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

variable [Facts]

/-- Under the precondition both arguments hold reals only. -/
theorem real_of_pre (x0 : FVec Ideal S32768x256 .f32) (x1 : FVec Ideal S128x2048 .f32)
    (h : fn (F := Ideal) x0 x1 = (fun _ => 1#1)) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.mp h0
  refine ⟨fun i => ?_, fun i => ?_⟩
  · exact real_of_abs_lt_inf _ (Host.reduce_andi_all _ _ _ _ _ ha i)
  · exact real_of_abs_lt_inf _ (Host.reduce_andi_all _ _ _ _ _ hb i)

end Cert.Pre_finite_inputs.Hand

end
-- ==== Proof.LibColumnCast.lean ====
/-
  A vector of length a cast to a column of shape [a, 1] (what a sum over the last axis that keeps that axis produces),
  read at an index given by coordinates.
-/
import Idealize.ShloMosaic.Lib.ValueIdx
import Idealize.ShloMosaic.Lib.Pipeline.Value

namespace Cert.Lib.ColumnCast

open Idealize.ShloMosaic Idealize.ShloMosaic.ValueIdx

/-- A vector of length a cast to a column [a, 1] reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.ColumnCast
-- ==== Proof.KernelPayload.lean ====
/-
  The kernel body's arithmetic read at an index.

  The body holds a block x of 4096 rows by 256 positions and the 8-by-256 table W of weights, one row per degree. Every
  intermediate vector of the body is, at position (p, q), one step of Clenshaw's recurrence in the entry x(p, q) with the
  weights W(7, q), …, W(0, q): the rows of W are broadcast over the block's rows, everything else is pointwise. The
  value stored for row r is the sum over the 256 positions q of the recurrence's result.
-/
import proofs.«124027_j14585708937626_2_alg».proof.Proof.Gen.KernelIdeal.Skeleton
import proofs.«124027_j14585708937626_2_alg».proof.Proof.ChebEReal
import proofs.«124027_j14585708937626_2_alg».proof.Proof.LibColumnCast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Cert.Cheb Cert.Lib.ColumnCast

/-- Row o of the weight table, cut out, flattened, put back as one row and broadcast over the 4096 rows of the block,
    reads at (p, q) the table at (o, q). -/
theorem wrow_apply (W : FVec Ideal S8x256 .f32) (o : ℕ) (ho : o < 8)
    (h0 : S8x256.ShapeCasts S8x256) (h1 : S8x256.Slices ![o, 0] S1x256) (h2 : S1x256.ShapeCasts S256)
    (h3 : S256.ShapeCasts S1x256) (h4 : S1x256.Broadcasts S4096x256) (p : Fin 4096) (q : Fin 256) :
    broadcastTo S4096x256 (shapeCast S1x256 (shapeCast S256 (extractStridedSlice S1x256 ![o, 0] (shapeCast S8x256 W h0) h1) h2) h3) h4 (ix2 p q)
      = W (ix2 (⟨o, ho⟩ : Fin 8) q) := by
  refine (broadcastTo_1b_ab_apply _ h4 p q).trans ?_
  refine (shapeCast_a_1a_apply _ h3 0 q).trans ?_
  refine (shapeCast_1a_a_apply _ h2 q).trans ?_
  refine (slice2_axis0_apply o _ h1 (0 : Fin 1) q (⟨o, ho⟩ : Fin 8) (by simp)).trans ?_
  rw [shapeCast_self]

variable (x : FVec Ideal S4096x256 .f32) (W : FVec Ideal S8x256 .f32) (p : Fin 4096) (q : Fin 256)

/-- b₇: the recurrence's first step, from zeros. -/
theorem pay5_apply : k0_pay5 (F := Ideal) x W (ix2 p q) = twoE * x (ix2 p q) * zeroE - zeroE + W (ix2 7 q) := by
  unfold k0_pay5 k0_pay3 k0_pay4 k0_pay2
  exact congrArg (fun z => twoE * x (ix2 p q) * zeroE - zeroE + z) (wrow_apply W 7 (by decide) _ _ _ _ _ p q)

/-- b₆. -/
theorem pay6_apply : k0_pay6 (F := Ideal) x W (ix2 p q) = twoE * x (ix2 p q) * k0_pay5 (F := Ideal) x W (ix2 p q) - zeroE + W (ix2 6 q) := by
  unfold k0_pay6 k0_pay3 k0_pay4 k0_pay2
  exact congrArg (fun z => twoE * x (ix2 p q) * k0_pay5 (F := Ideal) x W (ix2 p q) - zeroE + z) (wrow_apply W 6 (by decide) _ _ _ _ _ p q)

/-- b₅. -/
theorem pay7_apply : k0_pay7 (F := Ideal) x W (ix2 p q) = twoE * x (ix2 p q) * k0_pay6 (F := Ideal) x W (ix2 p q) - k0_pay5 (F := Ideal) x W (ix2 p q) + W (ix2 5 q) := by
  unfold k0_pay7 k0_pay3 k0_pay2
  exact congrArg (fun z => twoE * x (ix2 p q) * k0_pay6 (F := Ideal) x W (ix2 p q) - k0_pay5 (F := Ideal) x W (ix2 p q) + z) (wrow_apply W 5 (by decide) _ _ _ _ _ p q)

/-- b₄. -/
theorem pay8_apply : k0_pay8 (F := Ideal) x W (ix2 p q) = twoE * x (ix2 p q) * k0_pay7 (F := Ideal) x W (ix2 p q) - k0_pay6 (F := Ideal) x W (ix2 p q) + W (ix2 4 q) := by
  unfold k0_pay8 k0_pay3 k0_pay2
  exact congrArg (fun z => twoE * x (ix2 p q) * k0_pay7 (F := Ideal) x W (ix2 p q) - k0_pay6 (F := Ideal) x W (ix2 p q) + z) (wrow_apply W 4 (by decide) _ _ _ _ _ p q)

/-- b₃. -/
theorem pay9_apply : k0_pay9 (F := Ideal) x W (ix2 p q) = twoE * x (ix2 p q) * k0_pay8 (F := Ideal) x W (ix2 p q) - k0_pay7 (F := Ideal) x W (ix2 p q) + W (ix2 3 q) := by
  unfold k0_pay9 k0_pay3 k0_pay2
  exact congrArg (fun z => twoE * x (ix2 p q) * k0_pay8 (F := Ideal) x W (ix2 p q) - k0_pay7 (F := Ideal) x W (ix2 p q) + z) (wrow_apply W 3 (by decide) _ _ _ _ _ p q)

/-- b₂. -/
theorem pay10_apply : k0_pay10 (F := Ideal) x W (ix2 p q) = twoE * x (ix2 p q) * k0_pay9 (F := Ideal) x W (ix2 p q) - k0_pay8 (F := Ideal) x W (ix2 p q) + W (ix2 2 q) := by
  unfold k0_pay10 k0_pay3 k0_pay2
  exact congrArg (fun z => twoE * x (ix2 p q) * k0_pay9 (F := Ideal) x W (ix2 p q) - k0_pay8 (F := Ideal) x W (ix2 p q) + z) (wrow_apply W 2 (by decide) _ _ _ _ _ p q)

/-- The recurrence's last value before the weight of degree 1 is added: 2x·b₂ − b₃. -/
theorem pay11_apply : k0_pay11 (F := Ideal) x W (ix2 p q) = twoE * x (ix2 p q) * k0_pay10 (F := Ideal) x W (ix2 p q) - k0_pay9 (F := Ideal) x W (ix2 p q) := rfl

/-- The summand of the lane sum at (p, q): Clenshaw's recurrence in x(p, q) with column q of the weight table. -/
theorem summand_apply (h0 : S8x256.ShapeCasts S8x256) (h1 : S8x256.Slices ![1, 0] S1x256) (h1' : S8x256.Slices ![0, 0] S1x256)
    (h2 : S1x256.ShapeCasts S256) (h3 : S256.ShapeCasts S1x256) (h4 : S1x256.Broadcasts S4096x256) :
    x (ix2 p q) * (k0_pay11 (F := Ideal) x W (ix2 p q)
        + broadcastTo S4096x256 (shapeCast S1x256 (shapeCast S256 (extractStridedSlice S1x256 ![1, 0] (shapeCast S8x256 W h0) h1) h2) h3) h4 (ix2 p q))
      - k0_pay10 (F := Ideal) x W (ix2 p q)
      + broadcastTo S4096x256 (shapeCast S1x256 (shapeCast S256 (extractStridedSlice S1x256 ![0, 0] (shapeCast S8x256 W h0) h1') h2) h3) h4 (ix2 p q)
      = clenE (x (ix2 p q)) (fun d => W (ix2 d q)) := by
  rw [wrow_apply W 1 (by decide), wrow_apply W 0 (by decide), pay11_apply, pay10_apply, pay9_apply, pay8_apply, pay7_apply,
    pay6_apply, pay5_apply]
  rfl

/-- The value stored for row r of the block: the sum over the 256 positions of the recurrence's result. -/
theorem pay1_apply (r : Fin 4096) (u : Fin 1) :
    k0_pay1 (F := Ideal) x (k0_pay2 W) (k0_pay10 x W) (k0_pay11 x W) (k0_pay12 W) (ix2 r u)
      = ∑ q : Fin 256, clenE (x (ix2 r q)) (fun d => W (ix2 d q)) := by
  unfold k0_pay1 k0_pay12 k0_pay2
  refine (shapeCast_a_a1_apply _ _ r u).trans ?_
  refine (Ideal.multiReduction_add_single _ 0x00000000#32 reduces_S4096x256_S4096 (.inl rfl) rfl (ix1 r)).trans ?_
  refine Finset.sum_congr rfl fun q _ => ?_
  have hl : reduces_S4096x256_S4096.lift (ix1 r) q = ix2 r q :=
    funext fun a => Fin.ext (by match a with | ⟨0, _⟩ => rfl | ⟨1, _⟩ => rfl)
  rw [hl]
  exact summand_apply x W r q _ _ _ _ _ _

end Cert.KernelIdeal.Hand

end
-- ==== Proof.KernelValue.lean ====
/-
  The kernel's result array as one function of the argument arrays.

  The grid has 8 points; point t works on rows 4096·t … 4096·t + 4095 of the input and writes the same rows of the
  one-column result; the weight table is the same whole 8-by-256 array at every point. That table is computed on the host
  before the launch: the 128 rows of the coefficient table are summed (2048 column sums), the sums are laid out as 256
  positions by 8 degrees and transposed, so entry (d, q) of the table is the column sum of feature 8·q + d. Hence row
  4096·t + r of the result is `rowK` of the arguments at that row, and the 8 blocks tile the result.
-/
import proofs.«124027_j14585708937626_2_alg».proof.Proof.Gen.KernelIdeal.Value
import proofs.«124027_j14585708937626_2_alg».proof.Proof.KernelPayload
import proofs.«124027_j14585708937626_2_alg».proof.Proof.Spec
import Idealize.ShloMosaic.Lib.StableHlo.Run
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.KernelIdeal.Value Idealize.ShloMosaic Idealize.ShloMosaic.TcCoe
  Idealize.SL.Sem Idealize.ShloMosaic.StableHlo Idealize.ShloMosaic.ValueIdx Cert.Cheb
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- What the body leaves in the output block, row by row: the lane sum of Clenshaw's recurrence over the input block's
    row with the columns of the weight table. -/
theorem out_apply (x0 : Vec Ideal S4096x256 .f32) (x1 : Vec Ideal S8x256 .f32) (r : Fin 4096) (u : Fin 1) :
    out0_2 x0 x1 (ix2 r u) = ∑ q : Fin 256, clenE (x0 (ix2 r q)) (fun d => x1 (ix2 d q)) := by
  unfold out0_2
  rw [View.canon_unit_zero hz]
  simp only [View.ld_unit_zero (S := S4096x256) hz, View.ld_unit_zero (S := S8x256) hz]
  exact pay1_apply x0 x1 r u

/-- The printed index maps over the 8 grid points: the input and the result move with the point along the rows, the
    weight table does not move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The weight table the region finds: entry (d, q) is the sum of column 8·q + d of the coefficient table. -/
theorem V_main_v2_apply (c : Dev nD) (d : Fin 8) (q : Fin 256) :
    (V m c main_v2 : S8x256.Idx → EReal) (ix2 d q) = colsum (m ((c : Thread nD τ).loc main_arg1)) (flat q d) := by
  have e : (V m c main_v2 : S8x256.Idx → EReal)
      = transpose S8x256 [1, 0] (shapeCast S256x8 (Host.reduceAdd (F := Ideal) (m ((c : Thread nD τ).loc main_arg1))
          (constant (F := Ideal) S_ .f32 0x00000000#32) reducesTo_S128x2048_S2048_d0 h_S_) shapeCasts_S2048_S256x8)
          transposes_S256x8_S8x256_1_0 := by
    dsimp only [Gen.V, Gen.hostOps0]; after_results; rfl
  rw [e]
  refine (transpose_ix2_apply _ transposes_S256x8_S8x256_1_0 d q).trans ?_
  refine (shapeCast_apply _ shapeCasts_S2048_S256x8 (ix2 q d) (ix1 (flat q d)) ?_).trans ?_
  · rw [Shape.rowMajor_val_one, Shape.rowMajor_val_two]; rfl
  simp only [Host.reduceAdd, Ideal.hostReduceAdd_def]
  rw [Ideal.hostReduceAdd_single reducesTo_S128x2048_S2048_d0 (by decide)]
  unfold colsum
  refine congrArg (zeroE + ·) (Finset.sum_congr rfl fun k _ => ?_)
  exact congrArg _ (funext fun a => Fin.ext (by match a with | ⟨0, _⟩ => rfl | ⟨1, _⟩ => rfl))

/-- The input block at point t is rows 4096·t … of the input. -/
theorem iblk0_apply (c : Dev nD) (t : Fin cfg0.N) (r : Fin 4096) (q : Fin 256) (k : Fin 32768)
    (hk : k.val = t.val * 4096 + r.val) :
    (iblk m c 0 t : Vec Ideal S4096x256 .f32) (ix2 r q)
      = (m ((c : Thread nD τ).loc main_arg0) : S32768x256.Idx → EReal) (ix2 k q) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 4096 + 1 * r.val = k.val; rw [e0, hk]; omega
  | ⟨1, _⟩ => show win0_0.index t (1 : Fin 2) * 256 + 1 * q.val = q.val; rw [e1]; omega

/-- The weight block at every point is the whole weight table. -/
theorem iblk1_apply (c : Dev nD) (t : Fin cfg0.N) (d : Fin 8) (q : Fin 256) :
    (iblk m c 1 t : Vec Ideal S8x256 .f32) (ix2 d q) = colsum (m ((c : Thread nD τ).loc main_arg1)) (flat q d) := by
  obtain ⟨-, -, e2, e3, -⟩ := idx_facts t
  unfold iblk
  rw [View.read_apply]
  show (V m c main_v2 : S8x256.Idx → EReal) _ = _
  refine Eq.trans (congrArg _ (funext fun a => Fin.ext ?_)) (V_main_v2_apply m c d q)
  match a with
  | ⟨0, _⟩ => show win0_1.index t (0 : Fin 2) * 8 + 1 * d.val = d.val; rw [e2]; omega
  | ⟨1, _⟩ => show win0_1.index t (1 : Fin 2) * 256 + 1 * q.val = q.val; rw [e3]; omega

/-- What point t writes back is block t of the result function of the argument arrays. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨-, -, -, -, e4, e5⟩ := idx_facts t
  have hN : cfg0.N = 8 := N_0
  have ht : t.val < 8 := hN ▸ t.isLt
  rw [flushed2]
  funext j
  obtain ⟨r, u, rfl⟩ : ∃ (r : Fin 4096) (u : Fin 1), j = ix2 r u := ⟨j 0, j 1, @eq_ix2 4096 1 j⟩
  show out0_2 (iblk m c 0 t) (iblk m c 1 t) (ix2 r u) = G _ _ (((cfg0.win 2).blk t).view.emb (ix2 r u))
  refine (out_apply (iblk m c 0 t) (iblk m c 1 t) r u).trans ?_
  have hrow : ((((cfg0.win 2).blk t).view.emb (ix2 r u)) (0 : Fin 2)).val = t.val * 4096 + r.val := by
    show win0_2.index t (0 : Fin 2) * 4096 + 1 * r.val = _; rw [e4]; omega
  unfold G rowK
  refine Finset.sum_congr rfl fun q _ => ?_
  rw [iblk0_apply m c t r q ⟨((((cfg0.win 2).blk t).view.emb (ix2 r u)) (0 : Fin 2)).val, by rw [hrow]; have := r.isLt; omega⟩ hrow]
  exact congrArg (clenE _) (funext fun d => iblk1_apply m c t d q)

/-- Every row of the result lies in the block of the point that owns it. -/
theorem cover (i : S32768x1.Idx) :
    ∃ t : Fin cfg0.N, (cfg0.win 2).flush t = true ∧ i ∈ ((cfg0.win 2).blk t).view.set := by
  have hN : cfg0.N = 8 := N_0
  have h0 : (i 0).val < 32768 := (i 0).isLt
  have h1 : (i 1).val < 1 := (i 1).isLt
  let t : Fin cfg0.N := ⟨(i 0).val / 4096, by rw [hN]; omega⟩
  obtain ⟨-, -, -, -, e4, e5⟩ := idx_facts t
  refine ⟨t, flush0_2 t, ?_⟩
  show i ∈ ((View.whole main_v3).slice (win0_2.rect t)).set
  rw [View.set_slice_whole, Rect.mem_set_unit]
  intro a
  match a with
  | ⟨0, _⟩ =>
    show win0_2.index t (0 : Fin 2) * 4096 ≤ (i 0).val ∧ (i 0).val < win0_2.index t (0 : Fin 2) * 4096 + 4096
    rw [e4]; show (i 0).val / 4096 * 4096 ≤ (i 0).val ∧ (i 0).val < (i 0).val / 4096 * 4096 + 4096; omega
  | ⟨1, _⟩ =>
    show win0_2.index t (1 : Fin 2) * 1 ≤ (i 1).val ∧ (i 1).val < win0_2.index t (1 : Fin 2) * 1 + 1
    rw [e5]; omega

/-- The result array after the run. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

/-- The run, read: the result array at the result function of the arguments, the arguments unchanged. -/
theorem run : θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Hand

end
-- ==== Proof.RefValue.lean ====
/-
  The reference read at an index.

  The reference builds, for every entry x(b, i), the eight Chebyshev values T₀ … T₇ by the three-term recurrence, joins
  them along a last axis of length 8 and flattens to 2048 features per row (feature 8·i + d is T_d(x(b, i))), multiplies
  by the transposed table (a dot product of row b's features with each of the 128 table rows) and adds the 128 results.
  So its value in row b is 0 + Σ_n Σ_f feature(b, f) · table(n, f).
-/
import proofs.«124027_j14585708937626_2_alg».proof.Proof.Gen.ReferenceIdeal.Read
import proofs.«124027_j14585708937626_2_alg».proof.Proof.ChebEReal
import proofs.«124027_j14585708937626_2_alg».proof.Proof.Spec
import Idealize.ShloMosaic.Lib.ValueIdx
import Idealize.ShloMosaic.Lib.Pipeline.Value

noncomputable section

namespace Cert.ReferenceIdeal.Hand

open Cert.ReferenceIdeal Cert.ReferenceIdeal.Gen Cert.ReferenceIdeal.Read Idealize.ShloMosaic Idealize.ShloMosaic.ValueIdx Cert.Cheb

variable (X : (⟨S32768x256, .f32⟩ : BufTy).Contents (Elt Ideal)) (C : (⟨S128x2048, .f32⟩ : BufTy).Contents (Elt Ideal))

/-! ## The constants: ones and twos broadcast over the array -/

theorem v0_apply (k : S32768x256.Idx) : val_main_v0 (F := Ideal) k = oneE := by
  rw [val_main_v0_apply, val_main_cst_apply]; rfl
theorem v1_apply (k : S32768x256.Idx) : val_main_v1 (F := Ideal) k = twoE := by
  rw [val_main_v1_apply, val_main_cst_0_apply]; rfl
theorem v5_apply (k : S32768x256.Idx) : val_main_v5 (F := Ideal) k = twoE := by
  rw [val_main_v5_apply, val_main_cst_1_apply]; rfl
theorem v9_apply (k : S32768x256.Idx) : val_main_v9 (F := Ideal) k = twoE := by
  rw [val_main_v9_apply, val_main_cst_2_apply]; rfl
theorem v13_apply (k : S32768x256.Idx) : val_main_v13 (F := Ideal) k = twoE := by
  rw [val_main_v13_apply, val_main_cst_3_apply]; rfl
theorem v17_apply (k : S32768x256.Idx) : val_main_v17 (F := Ideal) k = twoE := by
  rw [val_main_v17_apply, val_main_cst_4_apply]; rfl
theorem v21_apply (k : S32768x256.Idx) : val_main_v21 (F := Ideal) k = twoE := by
  rw [val_main_v21_apply, val_main_cst_5_apply]; rfl

/-! ## The Chebyshev values of an entry, degree by degree -/

theorem v4_apply (k : S32768x256.Idx) : val_main_v4 (F := Ideal) X k = TE (X k) 2 := by
  rw [val_main_v4_apply, val_main_v3_apply, val_main_v2_apply, v1_apply, v0_apply]; rfl
theorem v8_apply (k : S32768x256.Idx) : val_main_v8 (F := Ideal) X k = TE (X k) 3 := by
  rw [val_main_v8_apply, val_main_v7_apply, val_main_v6_apply, v5_apply, v4_apply]; rfl
theorem v12_apply (k : S32768x256.Idx) : val_main_v12 (F := Ideal) X k = TE (X k) 4 := by
  rw [val_main_v12_apply, val_main_v11_apply, val_main_v10_apply, v9_apply, v8_apply, v4_apply]; rfl
theorem v16_apply (k : S32768x256.Idx) : val_main_v16 (F := Ideal) X k = TE (X k) 5 := by
  rw [val_main_v16_apply, val_main_v15_apply, val_main_v14_apply, v13_apply, v12_apply, v8_apply]; rfl
theorem v20_apply (k : S32768x256.Idx) : val_main_v20 (F := Ideal) X k = TE (X k) 6 := by
  rw [val_main_v20_apply, val_main_v19_apply, val_main_v18_apply, v17_apply, v16_apply, v12_apply]; rfl
theorem v24_apply (k : S32768x256.Idx) : val_main_v24 (F := Ideal) X k = TE (X k) 7 := by
  rw [val_main_v24_apply, val_main_v23_apply, val_main_v22_apply, v21_apply, v20_apply, v16_apply]; rfl

/-! ## The joined array: at (b, i, d) the Chebyshev value of degree d of the entry (b, i) -/

theorem feat_apply (b : Fin 32768) (i : Fin 256) (d : Fin 8) :
    val_main_v33 (F := Ideal) X (ix3 b i d) = TE (X (ix2 b i)) d.val := by
  have hoff : ∀ (d' : Fin 8) (bb : Fin S32768x256x1.rank), bb.cast (rfl : S32768x256x1.rank = S32768x256x8.rank) ≠ (2 : Fin S32768x256x8.rank) →
      ((ix3 b i (0 : Fin 1) : S32768x256x1.Idx) bb).val = ((ix3 b i d' : S32768x256x8.Idx) (bb.cast rfl)).val := fun d' bb hb => by
    match bb with
    | ⟨0, _⟩ => rfl
    | ⟨1, _⟩ => rfl
    | ⟨2, _⟩ => exact absurd rfl hb
  have hidx25 : idx_main_v25 (ix3 b i (0 : Fin 1)) = ix2 b i := funext fun a => Fin.ext (by match a with | ⟨0, _⟩ => rfl | ⟨1, _⟩ => rfl)
  have hidx26 : idx_main_v26 (ix3 b i (0 : Fin 1)) = ix2 b i := funext fun a => Fin.ext (by match a with | ⟨0, _⟩ => rfl | ⟨1, _⟩ => rfl)
  have hidx27 : idx_main_v27 (ix3 b i (0 : Fin 1)) = ix2 b i := funext fun a => Fin.ext (by match a with | ⟨0, _⟩ => rfl | ⟨1, _⟩ => rfl)
  have hidx28 : idx_main_v28 (ix3 b i (0 : Fin 1)) = ix2 b i := funext fun a => Fin.ext (by match a with | ⟨0, _⟩ => rfl | ⟨1, _⟩ => rfl)
  have hidx29 : idx_main_v29 (ix3 b i (0 : Fin 1)) = ix2 b i := funext fun a => Fin.ext (by match a with | ⟨0, _⟩ => rfl | ⟨1, _⟩ => rfl)
  have hidx30 : idx_main_v30 (ix3 b i (0 : Fin 1)) = ix2 b i := funext fun a => Fin.ext (by match a with | ⟨0, _⟩ => rfl | ⟨1, _⟩ => rfl)
  have hidx31 : idx_main_v31 (ix3 b i (0 : Fin 1)) = ix2 b i := funext fun a => Fin.ext (by match a with | ⟨0, _⟩ => rfl | ⟨1, _⟩ => rfl)
  have hidx32 : idx_main_v32 (ix3 b i (0 : Fin 1)) = ix2 b i := funext fun a => Fin.ext (by match a with | ⟨0, _⟩ => rfl | ⟨1, _⟩ => rfl)
  unfold val_main_v33
  match d with
  | ⟨0, _⟩ =>
    refine (concatenate_apply_piece 2 _ _ (ix3 b i (⟨0, by omega⟩ : Fin 8)) 0 (by show (0 : ℕ) < 8; omega) S32768x256x1 _ rfl rfl 0 rfl (ix3 b i (0 : Fin 1)) (hoff _) rfl).trans ?_
    rw [val_main_v25_apply, hidx25]; exact v0_apply _
  | ⟨1, _⟩ =>
    refine (concatenate_apply_piece 2 _ _ (ix3 b i (⟨1, by omega⟩ : Fin 8)) 1 (by show (1 : ℕ) < 8; omega) S32768x256x1 _ rfl rfl 1 rfl (ix3 b i (0 : Fin 1)) (hoff _) rfl).trans ?_
    rw [val_main_v26_apply, hidx26]; rfl
  | ⟨2, _⟩ =>
    refine (concatenate_apply_piece 2 _ _ (ix3 b i (⟨2, by omega⟩ : Fin 8)) 2 (by show (2 : ℕ) < 8; omega) S32768x256x1 _ rfl rfl 2 rfl (ix3 b i (0 : Fin 1)) (hoff _) rfl).trans ?_
    rw [val_main_v27_apply, hidx27]; exact v4_apply X _
  | ⟨3, _⟩ =>
    refine (concatenate_apply_piece 2 _ _ (ix3 b i (⟨3, by omega⟩ : Fin 8)) 3 (by show (3 : ℕ) < 8; omega) S32768x256x1 _ rfl rfl 3 rfl (ix3 b i (0 : Fin 1)) (hoff _) rfl).trans ?_
    rw [val_main_v28_apply, hidx28]; exact v8_apply X _
  | ⟨4, _⟩ =>
    refine (concatenate_apply_piece 2 _ _ (ix3 b i (⟨4, by omega⟩ : Fin 8)) 4 (by show (4 : ℕ) < 8; omega) S32768x256x1 _ rfl rfl 4 rfl (ix3 b i (0 : Fin 1)) (hoff _) rfl).trans ?_
    rw [val_main_v29_apply, hidx29]; exact v12_apply X _
  | ⟨5, _⟩ =>
    refine (concatenate_apply_piece 2 _ _ (ix3 b i (⟨5, by omega⟩ : Fin 8)) 5 (by show (5 : ℕ) < 8; omega) S32768x256x1 _ rfl rfl 5 rfl (ix3 b i (0 : Fin 1)) (hoff _) rfl).trans ?_
    rw [val_main_v30_apply, hidx30]; exact v16_apply X _
  | ⟨6, _⟩ =>
    refine (concatenate_apply_piece 2 _ _ (ix3 b i (⟨6, by omega⟩ : Fin 8)) 6 (by show (6 : ℕ) < 8; omega) S32768x256x1 _ rfl rfl 6 rfl (ix3 b i (0 : Fin 1)) (hoff _) rfl).trans ?_
    rw [val_main_v31_apply, hidx31]; exact v20_apply X _
  | ⟨7, _⟩ =>
    refine (concatenate_apply_piece 2 _ _ (ix3 b i (⟨7, by omega⟩ : Fin 8)) 7 (by show (7 : ℕ) < 8; omega) S32768x256x1 _ rfl rfl 7 rfl (ix3 b i (0 : Fin 1)) (hoff _) rfl).trans ?_
    rw [val_main_v32_apply, hidx32]; exact v24_apply X _
  | ⟨n + 8, h⟩ => exact absurd h (by omega)

/-! ## The result: row b is the sum over the table rows of the dot products with row b's features -/

theorem ref_row (b : Fin 32768) (u : Fin 1) : val_main_v37 (F := Ideal) X C (ix2 b u) = rowR X C b := by
  rw [val_main_v37_apply, val_main_v36_apply]
  unfold rowR
  refine congrArg (zeroE + ·) (Finset.sum_congr rfl fun n _ => ?_)
  rw [val_main_v35_apply]
  refine Finset.sum_congr rfl fun f _ => ?_
  rw [val_main_v34_apply]
  have hf : f.val < 2048 := f.isLt
  have hb : b.val < 32768 := b.isLt
  have hl : idx_main_v34 (lidx_main_v35 (idx_main_v36 (idx_main_v37 (ix2 b u)) n) f)
      = ix3 b (⟨f.val / 8, by omega⟩ : Fin 256) (⟨f.val % 8, by omega⟩ : Fin 8) :=
    funext fun a => Fin.ext (by
      match a with
      | ⟨0, _⟩ => show (b.val * 2048 + f.val) / 2048 = b.val; omega
      | ⟨1, _⟩ => show (b.val * 2048 + f.val) / 8 % 256 = f.val / 8; omega
      | ⟨2, _⟩ => show (b.val * 2048 + f.val) % 8 = f.val % 8; omega)
  have hr : ridx_main_v35 (idx_main_v36 (idx_main_v37 (ix2 b u)) n) f = ix2 n f :=
    funext fun a => Fin.ext (by match a with | ⟨0, _⟩ => rfl | ⟨1, _⟩ => rfl)
  rw [hl, hr, feat_apply]

end Cert.ReferenceIdeal.Hand

end
-- ==== Proof.lean ====
/-
  A batch of 32768 rows of 256 inputs; a table of 128 coefficient rows over 2048 features, feature 8·i + d being the
  Chebyshev polynomial T_d of input i. The result, one number per row, is the sum over the 128 table rows of the dot
  product of the row's features with the table row.

  The reference computes exactly that: T₀ … T₇ of every entry by the recurrence Tₖ₊₂ = 2x·Tₖ₊₁ − Tₖ, a dot product per
  table row, then the sum over the table rows. The kernel first adds the table rows (the sum is linear in the table),
  and then, per entry, evaluates Σ_d w_d·T_d(x) by Clenshaw's recurrence bₖ = 2x·bₖ₊₁ − bₖ₊₂ + wₖ, result x·b₁ − b₂ + w₀,
  and adds the 256 results of a row.

  The two agree on the reals: Clenshaw's recurrence is a polynomial identity, and a finite sum of products may be
  regrouped. On the extended reals the same holds when every entry is finite, which the precondition says; the three
  float constants 0, 1 and 2 denote those numbers exactly.

  The kernel's result array as a function of the arguments is `Cert.KernelIdeal.Hand.run` (the 8 blocks of 4096 rows,
  each row the lane sum of the recurrence); the reference's is its generated run read at an index
  (`Cert.ReferenceIdeal.Hand.ref_row`); `Cert.Cheb.rowK_eq_rowR` joins them.
-/
import proofs.«124027_j14585708937626_2_alg».proof.Defs
import proofs.«124027_j14585708937626_2_alg».proof.Proof.Gen.Kernel
import proofs.«124027_j14585708937626_2_alg».proof.Proof.Gen.Kernel.Skeleton
import proofs.«124027_j14585708937626_2_alg».proof.Proof.Gen.Kernel.Launch
import proofs.«124027_j14585708937626_2_alg».proof.Proof.Gen.Kernel.Points
import proofs.«124027_j14585708937626_2_alg».proof.Proof.Gen.Kernel.Frame
import proofs.«124027_j14585708937626_2_alg».proof.Proof.Gen.KernelIdeal
import proofs.«124027_j14585708937626_2_alg».proof.Proof.Gen.KernelIdeal.Skeleton
import proofs.«124027_j14585708937626_2_alg».proof.Proof.Gen.KernelIdeal.Launch
import proofs.«124027_j14585708937626_2_alg».proof.Proof.Gen.KernelIdeal.Points
import proofs.«124027_j14585708937626_2_alg».proof.Proof.Gen.KernelIdeal.Frame
import proofs.«124027_j14585708937626_2_alg».proof.Proof.Gen.ReferenceIdeal
import proofs.«124027_j14585708937626_2_alg».proof.Proof.Gen.Pre_finite_inputs
import proofs.«124027_j14585708937626_2_alg».proof.Proof.Gen.KernelIdeal.Value
import proofs.«124027_j14585708937626_2_alg».proof.Proof.Gen.ReferenceIdeal.Run
import proofs.«124027_j14585708937626_2_alg».proof.Proof.Gen.ReferenceIdeal.Read
import proofs.«124027_j14585708937626_2_alg».proof.Proof.Spec
import proofs.«124027_j14585708937626_2_alg».proof.Proof.Finite
import proofs.«124027_j14585708937626_2_alg».proof.Proof.KernelValue
import proofs.«124027_j14585708937626_2_alg».proof.Proof.RefValue
import Idealize.ShloMosaic.Adequacy
import Idealize.ShloMosaic.Init

noncomputable section

namespace Cert.Proof

open Idealize.ShloMosaic Idealize.SL.Sem Idealize.ShloMosaic.ValueIdx Cert.Cheb

/-- The three programs run to the end without a fault and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- On finite inputs the kernel's rows (column sums, then Clenshaw's recurrence per entry) are the reference's rows
    (Chebyshev features, a dot product per table row, summed). -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2]
  obtain ⟨hx, hc⟩ := Cert.Pre_finite_inputs.Hand.real_of_pre _ _ (hpre c)
  choose xr hxr using hx
  choose cr hcr using hc
  funext j
  obtain ⟨b, u, rfl⟩ : ∃ (b : Fin 32768) (u : Fin 1), j = ix2 b u := ⟨j 0, j 1, @eq_ix2 32768 1 j⟩
  rw [Cert.ReferenceIdeal.Hand.ref_row]
  show rowR _ _ b = rowK _ _ b
  rw [show m ((c.tc : Thread Cert.KernelIdeal.nD Cert.KernelIdeal.τ).loc Cert.KernelIdeal.main_arg0)
      = fun i => ((xr i : ℝ) : EReal) from funext hxr,
    show m ((c.tc : Thread Cert.KernelIdeal.nD Cert.KernelIdeal.τ).loc Cert.KernelIdeal.main_arg1)
      = fun i => ((cr i : ℝ) : EReal) from funext hcr]
  exact (rowK_eq_rowR xr cr b).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
